-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S3x8192x1024 : Shape := ⟨3, ![3, 8192, 1024]⟩
abbrev S3x1024x1024 : Shape := ⟨3, ![3, 1024, 1024]⟩
abbrev S1x1024x1024 : Shape := ⟨3, ![1, 1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S3x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S3x1024x1024, .f32⟩
  | .local _ .vmem, ⟨10, _⟩ => ⟨S3x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1x1024 : S_.BroadcastsInDim S1x1024 (![] : Fin 0 → Fin S1x1024.rank)
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S3x1024x1024_S1x1024x1024_1_0_0 : ∀ a, (![1, 0, 0] : Fin 3 → Nat) a + S1x1024x1024.size a ≤ S3x1024x1024.size a
  inb_S3x1024x1024_S1x1024x1024_2_0_0 : ∀ a, (![2, 0, 0] : Fin 3 → Nat) a + S1x1024x1024.size a ≤ S3x1024x1024.size a
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x1024x1024.size a ≤ S3x8192x1024.size a
  hwx0_6 : ∀ i : grid0.Coords, EltTy.bits .f32 = 32 ∨ (Rect.block (s := S3x8192x1024) S3x1024x1024.size (cc0_transform_6 i) (hinb0_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S3x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1x8192x1024 : Shape := ⟨3, ![1, 8192, 1024]⟩
abbrev S3x8192x1024 : Shape := ⟨3, ![3, 8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S1024x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S3x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  bcast_S8192x1024_S1x8192x1024_1_2 : S8192x1024.BroadcastsInDim S1x8192x1024 (![1, 2] : Fin 2 → Fin S1x8192x1024.rank)
  concatenates_S1x8192x1024_S1x8192x1024_S1x8192x1024_S3x8192x1024_d0 : Shape.Concatenates [S1x8192x1024, S1x8192x1024, S1x8192x1024] S3x8192x1024 0
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  What both programs compute, as one function of the five argument arrays, entry by entry, on the extended reals.

  Write σ(v) = v·v / (1 + v·v) for the saturating nonlinearity. For a row r of the batch and a column j,

    dx(r, j) = (−1)·x(r,j) + Σₖ σ(x(r,k))·A(j,k) + ((−1)·(w(r,j)·((x(r,j) + e(r,j)) − t(0,j)))·σ(t(0,j)))·σ(x(r,j)),

  the sum over the 1024 columns k of A's row j (that is σ(x)·Aᵀ). The result stacks three [8192, 1024] slabs:
  slab 0 is dx, slab 1 is −dx, slab 2 is the zero word. The three float literals stay the words both programs
  print (1.0, −1.0, 0.0); nothing here evaluates them.
-/
import Idealize.ShloMosaic.PureOps.Ideal
import Idealize.ShloMosaic.Lib.ValueIdx

noncomputable section

namespace Cert.Spec

open Idealize.ShloMosaic Idealize.ShloMosaic.ValueIdx

/-- The word of 1.0. -/
abbrev one : EReal := Ideal.ofBits .f32 0x3F800000#32
/-- The word of −1.0. -/
abbrev negOne : EReal := Ideal.ofBits .f32 0xBF800000#32
/-- The word of 0.0. -/
abbrev zero : EReal := Ideal.ofBits .f32 0x00000000#32

/-- The saturating nonlinearity σ(v) = v·v / (1 + v·v), with the extended reals' quotient. -/
def sat (v : EReal) : EReal := Ideal.div (v * v) (one + v * v)

/-- dx at row `r`, column `j`: the linear decay, the coupling σ(x)·Aᵀ and the control term. -/
def dxAt (x e w : (⟨2, ![8192, 1024]⟩ : Shape).Idx → EReal) (A : (⟨2, ![1024, 1024]⟩ : Shape).Idx → EReal)
    (t : (⟨2, ![1, 1024]⟩ : Shape).Idx → EReal) (r : Fin 8192) (j : Fin 1024) : EReal :=
  (negOne * x (ix2 r j) + ∑ k : Fin 1024, sat (x (ix2 r k)) * A (ix2 j k))
    + ((negOne * (w (ix2 r j) * ((x (ix2 r j) + e (ix2 r j)) - t (ix2 (0 : Fin 1) j)))) * sat (t (ix2 (0 : Fin 1) j)))
      * sat (x (ix2 r j))

/-- What slab `p` of the stack holds of the entry `v` of dx: `v`, `−v`, the zero word. -/
def slab (p : Fin 3) (v : EReal) : EReal :=
  match p with
  | 0 => v
  | 1 => -v
  | 2 => zero

theorem slab_zero (v : EReal) : slab 0 v = v := rfl
theorem slab_one (v : EReal) : slab 1 v = -v := rfl
theorem slab_two (v : EReal) : slab 2 v = zero := rfl

/-- The [3, 8192, 1024] result: entry (p, r, j) is slab `p` of dx(r, j). -/
def stack (x e w : (⟨2, ![8192, 1024]⟩ : Shape).Idx → EReal) (A : (⟨2, ![1024, 1024]⟩ : Shape).Idx → EReal)
    (t : (⟨2, ![1, 1024]⟩ : Shape).Idx → EReal) : (⟨3, ![3, 8192, 1024]⟩ : Shape).Idx → EReal :=
  fun i => slab (i 0) (dxAt x e w A t (i 1) (i 2))

theorem stack_apply (x e w : (⟨2, ![8192, 1024]⟩ : Shape).Idx → EReal) (A : (⟨2, ![1024, 1024]⟩ : Shape).Idx → EReal)
    (t : (⟨2, ![1, 1024]⟩ : Shape).Idx → EReal) (p : Fin 3) (r : Fin 8192) (j : Fin 1024) :
    stack x e w A t (ix3 p r j) = slab p (dxAt x e w A t r j) := rfl

end Cert.Spec

end
-- ==== Proof.LibStack3.lean ====
/-
  Three slabs stacked along a new leading axis, read at an index.

  A concatenation along axis 0 of three arrays of shape [1, a, b] is the array of shape [3, a, b] whose entry
  (p, r, j) is entry (0, r, j) of slab p: the coordinate on the joined axis names the slab, the other two
  coordinates are kept. Any extents a and b, any element type.
-/
import Idealize.ShloMosaic.Lib.Pipeline.Value
import Idealize.ShloMosaic.Lib.ValueIdx

noncomputable section

namespace Cert.LibStack3

open Idealize.ShloMosaic Idealize.ShloMosaic.ValueIdx

variable {α : Type}

/-- Slab `p` of three. -/
def pick (u0 u1 u2 : α) (p : Fin 3) : α :=
  match p with
  | 0 => u0
  | 1 => u1
  | 2 => u2

theorem pick_zero (u0 u1 u2 : α) : pick u0 u1 u2 0 = u0 := rfl
theorem pick_one (u0 u1 u2 : α) : pick u0 u1 u2 1 = u1 := rfl
theorem pick_two (u0 u1 u2 : α) : pick u0 u1 u2 2 = u2 := rfl

/-- Off the joined axis an index of a slab and the index of the stack with the same row and column agree. -/
theorem off_axis {a b : Nat} (p : Fin 3) (r : Fin a) (j : Fin b)
    (hr : (⟨3, ![1, a, b]⟩ : Shape).rank = (⟨3, ![3, a, b]⟩ : Shape).rank) :
    ∀ d : Fin (⟨3, ![1, a, b]⟩ : Shape).rank, d.cast hr ≠ (0 : Fin 3) →
      ((ix3 (0 : Fin 1) r j : (⟨3, ![1, a, b]⟩ : Shape).Idx) d).val
        = ((ix3 p r j : (⟨3, ![3, a, b]⟩ : Shape).Idx) (d.cast hr)).val := by
  intro d hd
  match d with
  | ⟨0, _⟩ => exact absurd rfl hd
  | ⟨1, _⟩ => rfl
  | ⟨2, _⟩ => rfl

/-- **Three [1, a, b] slabs stacked along axis 0, read at (p, r, j)**: slab `p` at (0, r, j). -/
theorem stack3_apply {a b : Nat} (u0 u1 u2 : (⟨3, ![1, a, b]⟩ : Shape).Idx → α)
    (h : Shape.Concatenates (([⟨⟨3, ![1, a, b]⟩, u0⟩, ⟨⟨3, ![1, a, b]⟩, u1⟩, ⟨⟨3, ![1, a, b]⟩, u2⟩] :
      List ((s : Shape) × (s.Idx → α))).map (·.1)) ⟨3, ![3, a, b]⟩ 0)
    (p : Fin 3) (r : Fin a) (j : Fin b) :
    concatenate ⟨3, ![3, a, b]⟩ 0 [⟨⟨3, ![1, a, b]⟩, u0⟩, ⟨⟨3, ![1, a, b]⟩, u1⟩, ⟨⟨3, ![1, a, b]⟩, u2⟩] h (ix3 p r j)
      = pick u0 u1 u2 p (ix3 (0 : Fin 1) r j) := by
  match p with
  | ⟨0, hp⟩ =>
    exact concatenate_apply_piece (0 : Fin 3) _ h (ix3 (⟨0, hp⟩ : Fin 3) r j) 0 (by simp) ⟨3, ![1, a, b]⟩ u0 rfl rfl 0 rfl
      (ix3 (0 : Fin 1) r j) (off_axis ⟨0, hp⟩ r j rfl) rfl
  | ⟨1, hp⟩ =>
    exact concatenate_apply_piece (0 : Fin 3) _ h (ix3 (⟨1, hp⟩ : Fin 3) r j) 1 (by simp) ⟨3, ![1, a, b]⟩ u1 rfl rfl 1 rfl
      (ix3 (0 : Fin 1) r j) (off_axis ⟨1, hp⟩ r j rfl) rfl
  | ⟨2, hp⟩ =>
    exact concatenate_apply_piece (0 : Fin 3) _ h (ix3 (⟨2, hp⟩ : Fin 3) r j) 2 (by simp) ⟨3, ![1, a, b]⟩ u2 rfl rfl 2 rfl
      (ix3 (0 : Fin 1) r j) (off_axis ⟨2, hp⟩ r j rfl) rfl

end Cert.LibStack3

end
-- ==== Proof.RefStack.lean ====
/-
  The reference's result is the specification's stack.

  Read one stage at a time at an index: the sum %24 at (r, j) is dx(r, j) — the decay (−1)·x, the product of σ(x)
  with the TRANSPOSE of A read as Σₖ σ(x(r,k))·A(j,k) (the transpose swaps the two coordinates of A, so the
  right operand's entry (k, j) is A(j, k)), and the control term with the [1, 1024] rows of the target and of
  σ(target) laid along every row of the batch; %25 negates it; the three [1, 8192, 1024] casts of %24, %25 and of
  the zero word are joined along the new leading axis, so entry (p, r, j) of the result is slab p of dx(r, j).
-/
import proofs.«162826_j56461640073243_2_alg».proof.Proof.Gen.ReferenceIdeal.Read
import proofs.«162826_j56461640073243_2_alg».proof.Proof.Spec
import proofs.«162826_j56461640073243_2_alg».proof.Proof.LibStack3

noncomputable section

namespace Cert.RefStack

open Cert.ReferenceIdeal Cert.ReferenceIdeal.Gen Cert.ReferenceIdeal.Read
open Idealize.ShloMosaic Idealize.ShloMosaic.ValueIdx

/-! ## Where each stage reads its operands -/

/-- The product's left operand at (r, j), term k: row r, column k. -/
theorem left_at (r : Fin 8192) (j k : Fin 1024) : lidx_main_v21 (ix2 r j) k = ix2 r k :=
  funext fun a => Fin.ext (by match a with | ⟨0, _⟩ => rfl | ⟨1, _⟩ => rfl)

/-- The product's right operand (the transposed A) at (r, j), term k: row k, column j. -/
theorem right_at (r : Fin 8192) (j k : Fin 1024) : ridx_main_v21 (ix2 r j) k = ix2 k j :=
  funext fun a => Fin.ext (by match a with | ⟨0, _⟩ => rfl | ⟨1, _⟩ => rfl)

/-- The transpose at (k, j) reads A at (j, k). -/
theorem transposed_at (k j : Fin 1024) : idx_main_v20 (ix2 k j) = ix2 j k :=
  funext fun a => Fin.ext (by match a with | ⟨0, _⟩ => rfl | ⟨1, _⟩ => rfl)

/-- The target's row laid along the batch: (r, j) reads (0, j). -/
theorem target_row_at (r : Fin 8192) (j : Fin 1024) : idx_main_v6 (ix2 r j) = ix2 (0 : Fin 1) j :=
  funext fun a => Fin.ext (by match a with | ⟨0, _⟩ => rfl | ⟨1, _⟩ => rfl)

/-- σ(target)'s row laid along the batch: (r, j) reads (0, j). -/
theorem sat_row_at (r : Fin 8192) (j : Fin 1024) : idx_main_v11 (ix2 r j) = ix2 (0 : Fin 1) j :=
  funext fun a => Fin.ext (by match a with | ⟨0, _⟩ => rfl | ⟨1, _⟩ => rfl)

/-- A [1, 8192, 1024] cast at (0, r, j) reads its [8192, 1024] operand at (r, j) (the three casts share this map). -/
theorem slab_at (r : Fin 8192) (j : Fin 1024) : idx_main_v27 (ix3 (0 : Fin 1) r j) = ix2 r j :=
  funext fun a => Fin.ext (by match a with | ⟨0, _⟩ => rfl | ⟨1, _⟩ => rfl)

/-! ## The stages -/

/-- %17 is σ(x), entry by entry. -/
theorem sat_x (x0 : (⟨S8192x1024, .f32⟩ : BufTy).Contents (Elt Ideal)) (i : S8192x1024.Idx) :
    val_main_v17 (F := Ideal) x0 i = Spec.sat (x0 i) := by
  rw [val_main_v17_apply, val_main_v13_apply, val_main_v16_apply, val_main_v15_apply, val_main_cst_1_apply, val_main_v14_apply]
  rfl

/-- %4 is σ(target), entry by entry. -/
theorem sat_t (x4 : (⟨S1x1024, .f32⟩ : BufTy).Contents (Elt Ideal)) (i : S1x1024.Idx) :
    val_main_v4 (F := Ideal) x4 i = Spec.sat (x4 i) := by
  rw [val_main_v4_apply, val_main_v0_apply, val_main_v3_apply, val_main_v2_apply, val_main_cst_apply, val_main_v1_apply]
  rfl

/-- %21, σ(x) times the transpose of A, at (r, j): Σₖ σ(x(r,k))·A(j,k). -/
theorem coupling_at (x0 : (⟨S8192x1024, .f32⟩ : BufTy).Contents (Elt Ideal)) (x3 : (⟨S1024x1024, .f32⟩ : BufTy).Contents (Elt Ideal))
    (r : Fin 8192) (j : Fin 1024) :
    val_main_v21 (F := Ideal) x0 x3 (ix2 r j) = ∑ k : Fin 1024, Spec.sat (x0 (ix2 r k)) * x3 (ix2 j k) := by
  rw [val_main_v21_apply]
  refine Finset.sum_congr rfl fun k _ => ?_
  rw [left_at, right_at, sat_x, val_main_v20_apply, transposed_at]

/-- %12, the control term (−1)·(w·((x + e) − t))·σ(t), at (r, j). -/
theorem control_at (x0 x1 x2 : (⟨S8192x1024, .f32⟩ : BufTy).Contents (Elt Ideal)) (x4 : (⟨S1x1024, .f32⟩ : BufTy).Contents (Elt Ideal))
    (r : Fin 8192) (j : Fin 1024) :
    val_main_v12 (F := Ideal) x0 x1 x2 x4 (ix2 r j)
      = (Spec.negOne * (x2 (ix2 r j) * ((x0 (ix2 r j) + x1 (ix2 r j)) - x4 (ix2 (0 : Fin 1) j)))) * Spec.sat (x4 (ix2 (0 : Fin 1) j)) := by
  rw [val_main_v12_apply, val_main_v10_apply, val_main_v9_apply, val_main_cst_0_apply, val_main_v8_apply, val_main_v7_apply,
    val_main_v5_apply, val_main_v6_apply, val_main_v11_apply, sat_t, target_row_at, sat_row_at]
  rfl

/-- %24 at (r, j) is dx(r, j). -/
theorem dx_at (x0 x1 x2 : (⟨S8192x1024, .f32⟩ : BufTy).Contents (Elt Ideal)) (x3 : (⟨S1024x1024, .f32⟩ : BufTy).Contents (Elt Ideal))
    (x4 : (⟨S1x1024, .f32⟩ : BufTy).Contents (Elt Ideal)) (r : Fin 8192) (j : Fin 1024) :
    val_main_v24 (F := Ideal) x0 x1 x2 x3 x4 (ix2 r j) = Spec.dxAt x0 x1 x2 x3 x4 r j := by
  rw [val_main_v24_apply, val_main_v22_apply, val_main_v19_apply, val_main_v18_apply, val_main_cst_2_apply, coupling_at,
    val_main_v23_apply, control_at, sat_x]
  rfl

/-! ## The result -/

/-- The reference's result array is the specification's stack of the arguments. -/
theorem result_eq (x0 x1 x2 : (⟨S8192x1024, .f32⟩ : BufTy).Contents (Elt Ideal)) (x3 : (⟨S1024x1024, .f32⟩ : BufTy).Contents (Elt Ideal))
    (x4 : (⟨S1x1024, .f32⟩ : BufTy).Contents (Elt Ideal)) :
    val_main_v30 (F := Ideal) x0 x1 x2 x3 x4 = Spec.stack x0 x1 x2 x3 x4 := by
  funext i
  obtain ⟨p, r, j, rfl⟩ : ∃ (p : Fin 3) (r : Fin 8192) (j : Fin 1024), i = ix3 p r j := ⟨i 0, i 1, i 2, eq_ix3 i⟩
  rw [Spec.stack_apply]
  unfold val_main_v30
  refine (LibStack3.stack3_apply (val_main_v27 (F := Ideal) x0 x1 x2 x3 x4) (val_main_v28 (F := Ideal) x0 x1 x2 x3 x4)
    (val_main_v29 (F := Ideal)) _ p r j).trans ?_
  match p with
  | ⟨0, _⟩ =>
    show val_main_v27 (F := Ideal) x0 x1 x2 x3 x4 (ix3 (0 : Fin 1) r j) = _
    rw [val_main_v27_apply, slab_at, dx_at]
    rfl
  | ⟨1, _⟩ =>
    show val_main_v28 (F := Ideal) x0 x1 x2 x3 x4 (ix3 (0 : Fin 1) r j) = _
    rw [val_main_v28_apply, show idx_main_v28 (ix3 (0 : Fin 1) r j) = ix2 r j from slab_at r j, val_main_v25_apply, dx_at]
    rfl
  | ⟨2, _⟩ =>
    show val_main_v29 (F := Ideal) (ix3 (0 : Fin 1) r j) = _
    rw [val_main_v29_apply, val_main_v26_apply, val_main_cst_3_apply]
    rfl

end Cert.RefStack

end
-- ==== Proof.LibDotT.lean ====
/-
  A matrix product whose right factor is contracted on its LAST axis (an M×K matrix times the transpose of an N×K
  matrix), into the zero matrix, at the ideal values: its entry (r, c) is the sum over k of (r, k) times (c, k).
  Nothing here mentions a program: literal ranks, symbolic extents.
-/
import Idealize.ShloMosaic.PureOps.Ideal.Laws
import Idealize.ShloMosaic.Lib.ValueIdx

noncomputable section

namespace Cert.DotT

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's ROW coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- The product of an M×K matrix with the transpose of an N×K matrix, into the zero matrix, at entry (r, c): the sum
    over k of (r, k) times (c, k). -/
theorem matmul_apply {M K N : Nat} {φ₁ φ₂ : FTy} (prec : Option ContractPrecision)
    (lhs : FVec Ideal ⟨2, ![M, K]⟩ φ₁) (rhs : FVec Ideal ⟨2, ![N, K]⟩ φ₂) (r : Fin M) (c : Fin N) :
    matmul (DotDims.transposedRhs M K N) prec lhs rhs (constant (F := Ideal) ⟨2, ![M, N]⟩ .f32 0x00000000#32) (ix2 r c)
      = ∑ k : Fin K, lhs (ix2 r k) * rhs (ix2 c k) := by
  show FloatOps.matmul (DotDims.transposedRhs M K N) prec lhs rhs (constant (F := Ideal) ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.DotT

end
-- ==== Proof.KernelBlock.lean ====
/-
  What one run of the kernel body leaves in the output block, from the six blocks it loads.

  The body loads a [1024, 1024] block of x, of e and of w, the whole matrix A, the [1, 1024] target and the
  [1, 1024] row b the host computed before the launch, and stores three [1, 1024, 1024] slabs. At row r and
  column j of the block,

    dx(r, j) = (−1)·x(r,j) + Σₖ σ(x(r,k))·A(j,k) + ((−1)·(w(r,j)·((x(r,j) + e(r,j)) − t(0,j)))·b(0,j))·σ(x(r,j)):

  the product contracts BOTH operands on their last axis (σ(x) times the transpose of A) into a zero accumulator,
  which adds nothing; the two one-row operands are laid along every row. Slab 0 of the block is dx, slab 1 is
  0 − dx, which is −dx on the extended reals (0 + y = y for every y, infinite or not), and slab 2 the zero word.
-/
import proofs.«162826_j56461640073243_2_alg».proof.Proof.Gen.KernelIdeal.Frame
import proofs.«162826_j56461640073243_2_alg».proof.Proof.Spec
import proofs.«162826_j56461640073243_2_alg».proof.Proof.LibDotT
import Idealize.ShloMosaic.Lib.Pipeline.Value
import Idealize.ShloMosaic.Lib.ValueIdx
import Idealize.ShloMosaic.Lib.ValueLayout
import Idealize.ShloMosaic.Lib.KernelVsHost

noncomputable section

namespace Cert.KernelBlock

open Cert.KernelIdeal Cert.KernelIdeal.Gen
open Idealize.ShloMosaic Idealize.ShloMosaic.ValueIdx

/-! ## The non-pointwise operations of the body, read at an index -/

/-- A one-row matrix laid along every row: entry (r, j) is the row's entry (0, j). -/
theorem row_down_apply {α : Type} {a b : Nat} (y : (⟨2, ![1, b]⟩ : Shape).Idx → α)
    (h : (⟨2, ![1, b]⟩ : Shape).Broadcasts ⟨2, ![a, b]⟩) (r : Fin a) (j : Fin b) :
    broadcastTo ⟨2, ![a, b]⟩ y h (ix2 r j) = y (ix2 (0 : Fin 1) j) :=
  broadcastTo_apply y h (ix2 r j) (ix2 (0 : Fin 1) j) (by
    intro d
    match d with
    | ⟨0, _⟩ => rfl
    | ⟨1, _⟩ =>
      show j.val = if b = 1 then 0 else j.val
      split
      · have := j.isLt; omega
      · rfl)

/-- The body's contraction record: both operands contracted on their last axis. -/
theorem dot_eq : dot_S1024x1024_S1024x1024_S1024x1024_1_1_0_0_n_n = DotDims.transposedRhs 1024 1024 1024 := rfl

/-- The body's product into the zero accumulator at (r, j): Σₖ s(r,k)·a(j,k). -/
theorem coupling_at (s a : FVec Ideal S1024x1024 .f32) (r j : Fin 1024) :
    matmul dot_S1024x1024_S1024x1024_S1024x1024_1_1_0_0_n_n none s a (constant (F := Ideal) S1024x1024 .f32 0x00000000#32) (ix2 r j)
      = ∑ k : Fin 1024, s (ix2 r k) * a (ix2 j k) := by
  rw [dot_eq]
  exact DotT.matmul_apply none s a r j

/-! ## dx of a block -/

/-- dx at (r, j) of the block, from the six loaded blocks. -/
def dxBlk (v0 v1 v2 v3 : Vec Ideal S1024x1024 .f32) (v4 v5 : Vec Ideal S1x1024 .f32) (r j : Fin 1024) : EReal :=
  (Spec.negOne * v0 (ix2 r j) + ∑ k : Fin 1024, Spec.sat (v0 (ix2 r k)) * v3 (ix2 j k))
    + ((Spec.negOne * (v2 (ix2 r j) * ((v0 (ix2 r j) + v1 (ix2 r j)) - v4 (ix2 (0 : Fin 1) j)))) * v5 (ix2 (0 : Fin 1) j))
      * Spec.sat (v0 (ix2 r j))

/-- The body's sum %25 at (r, j) is dx of the block. -/
theorem pay2_at (v0 v1 v2 v3 : Vec Ideal S1024x1024 .f32) (v4 v5 : Vec Ideal S1x1024 .f32) (r j : Fin 1024) :
    k0_pay2 (F := Ideal) v0 v1 v2 v3 v4 v5 (ix2 r j) = dxBlk v0 v1 v2 v3 v4 v5 r j := by
  unfold k0_pay2
  simp only [addf_apply, mulf_apply, subf_apply, broadcast_apply]
  rw [coupling_at, row_down_apply, row_down_apply, shapeCast_self]
  rfl

/-! ## The three stored slabs -/

/-- The block the body leaves, as ONE function of the block index: slab (y 0) of dx at (y 1, y 2). -/
def blockOf (v0 v1 v2 v3 : Vec Ideal S1024x1024 .f32) (v4 v5 : Vec Ideal S1x1024 .f32) : S3x1024x1024.Idx → EReal :=
  fun y => Spec.slab (y 0) (dxBlk v0 v1 v2 v3 v4 v5 (y 1) (y 2))

/-- The first store's payload (dx cast to one slab) at (u, r, j). -/
theorem pay3_at (v0 v1 v2 v3 : Vec Ideal S1024x1024 .f32) (v4 v5 : Vec Ideal S1x1024 .f32) (u : Fin 1) (r j : Fin 1024) :
    k0_pay3 (F := Ideal) v0 v1 v2 v3 v4 v5 (ix3 u r j) = dxBlk v0 v1 v2 v3 v4 v5 r j := by
  unfold k0_pay3
  exact (shapeCast_ab_1ab_apply _ _ u r j).trans (pay2_at v0 v1 v2 v3 v4 v5 r j)

/-- The second store's payload (0 − dx cast to one slab) at (u, r, j): −dx. -/
theorem pay4_at (v0 v1 v2 v3 : Vec Ideal S1024x1024 .f32) (v4 v5 : Vec Ideal S1x1024 .f32) (u : Fin 1) (r j : Fin 1024) :
    k0_pay4 (F := Ideal) v0 v1 v2 v3 v4 v5 (ix3 u r j) = -dxBlk v0 v1 v2 v3 v4 v5 r j := by
  unfold k0_pay4
  refine (shapeCast_ab_1ab_apply _ _ u r j).trans ?_
  rw [subf_zero_eq_hostNegf]
  show -(k0_pay2 (F := Ideal) v0 v1 v2 v3 v4 v5 (ix2 r j)) = _
  rw [pay2_at]

/-- The third store's payload (the zero word cast to one slab) at any index. -/
theorem pay1_at (u : Fin 1) (r j : Fin 1024) : k0_pay1 (F := Ideal) (ix3 u r j) = Spec.zero := by
  unfold k0_pay1
  exact shapeCast_ab_1ab_apply _ _ u r j

end Cert.KernelBlock

end
-- ==== Proof.KernelArray.lean ====
/-
  From the blocks to the whole result array.

  The grid has eight points; point t works on rows 1024·t … 1024·t + 1023 of the batch. Its blocks of x, e and w
  are those rows of the argument arrays, its blocks of A and of the target are the whole arrays, and its sixth
  block is the [1, 1024] row the host computed before the launch, which is σ(target) entry by entry. The three
  slabs the body stores tile the [3, 1024, 1024] output block, so the block is one function of its index, and
  read where the output's rectangle puts it — block entry (p, r, j) is array entry (p, 1024·t + r, j) — it is
  the specification's stack of the argument arrays. The eight output blocks tile the [3, 8192, 1024] array
  (row R lies in the block of point R / 1024), so after the run the array IS the stack.
-/
import proofs.«162826_j56461640073243_2_alg».proof.Proof.Gen.KernelIdeal.Value
import proofs.«162826_j56461640073243_2_alg».proof.Proof.KernelBlock
import Idealize.ShloMosaic.Lib.Pipeline.Value
import Idealize.ShloMosaic.Lib.StableHlo.Run

noncomputable section

namespace Cert.KernelArray

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The output block as one function of its index -/

theorem zero2 : (![0, 0] : Fin 2 → Nat) = fun _ => 0 := funext fun a => by fin_cases a <;> rfl

/-- Slab p of the output block, entry (u, r, j) of the slab, is block entry (p, r, j). -/
theorem slab_emb (p : Fin 3) (h : ∀ a, (![p.val, 0, 0] : Fin 3 → Nat) a + S1x1024x1024.size a ≤ S3x1024x1024.size a)
    (u : Fin 1) (r j : Fin 1024) :
    (Rect.unit (s := S3x1024x1024) ![p.val, 0, 0] S1x1024x1024.size h).emb (ix3 u r j) = ix3 p r j := by
  funext a
  apply Fin.ext
  match a with
  | ⟨0, _⟩ => show p.val + 1 * u.val = p.val; omega
  | ⟨1, _⟩ => show 0 + 1 * r.val = r.val; omega
  | ⟨2, _⟩ => show 0 + 1 * j.val = j.val; omega

/-- What the body leaves in the output block is `blockOf` of the loaded blocks: each of the three stored slabs is
    that function on its rectangle, and the slabs cover the block. -/
theorem out_eq (x0 x1 x2 x3 : Vec Ideal S1024x1024 .f32) (x4 x5 : Vec Ideal S1x1024 .f32) :
    out0_6 (F := Ideal) x0 x1 x2 x3 x4 x5 = KernelBlock.blockOf x0 x1 x2 x3 x4 x5 := by
  funext y
  unfold out0_6
  simp only [View.ld_unit_zero (S := S1024x1024) zero2, View.ld_unit_zero (S := S1x1024) zero2]
  refine View.canon_apply_of_pieces (Val := Elt Ideal) (e := .f32) (KernelBlock.blockOf x0 x1 x2 x3 x4 x5) _ ?_ y (cover0_6 _ _ _ y)
  intro pc hpc
  simp only [List.mem_cons, List.not_mem_nil, or_false] at hpc
  rcases hpc with rfl | rfl | rfl
  · intro x
    obtain ⟨u, r, j, rfl⟩ : ∃ (u : Fin 1) (r j : Fin 1024), x = ix3 u r j := ⟨x 0, x 1, x 2, eq_ix3 x⟩
    show k0_pay1 (F := Ideal) (ix3 u r j) = KernelBlock.blockOf x0 x1 x2 x3 x4 x5 (r0_4.emb (ix3 u r j))
    rw [KernelBlock.pay1_at, show r0_4.emb (ix3 u r j) = ix3 (2 : Fin 3) r j from slab_emb 2 _ u r j]
    rfl
  · intro x
    obtain ⟨u, r, j, rfl⟩ : ∃ (u : Fin 1) (r j : Fin 1024), x = ix3 u r j := ⟨x 0, x 1, x 2, eq_ix3 x⟩
    show k0_pay4 (F := Ideal) x0 x1 x2 x3 x4 x5 (ix3 u r j) = KernelBlock.blockOf x0 x1 x2 x3 x4 x5 (r0_3.emb (ix3 u r j))
    rw [KernelBlock.pay4_at, show r0_3.emb (ix3 u r j) = ix3 (1 : Fin 3) r j from slab_emb 1 _ u r j]
    rfl
  · intro x
    obtain ⟨u, r, j, rfl⟩ : ∃ (u : Fin 1) (r j : Fin 1024), x = ix3 u r j := ⟨x 0, x 1, x 2, eq_ix3 x⟩
    show k0_pay3 (F := Ideal) x0 x1 x2 x3 x4 x5 (ix3 u r j) = KernelBlock.blockOf x0 x1 x2 x3 x4 x5 (r0_2.emb (ix3 u r j))
    rw [KernelBlock.pay3_at, show r0_2.emb (ix3 u r j) = ix3 (0 : Fin 3) r j from slab_emb 0 _ u r j]
    rfl

/-! ## dx of a block whose loaded blocks are the right rows of the arrays -/

/-- If the blocks of x, e, w hold row R of the arrays at block row r, the block of A holds A, the target's block
    the target and the sixth block σ(target), then dx of the block at (r, j) is dx of the arrays at (R, j). -/
theorem dxBlk_eq (X E W : (⟨2, ![8192, 1024]⟩ : Shape).Idx → EReal) (A : (⟨2, ![1024, 1024]⟩ : Shape).Idx → EReal)
    (T : (⟨2, ![1, 1024]⟩ : Shape).Idx → EReal)
    (v0 v1 v2 v3 : Vec Ideal S1024x1024 .f32) (v4 v5 : Vec Ideal S1x1024 .f32) (R : Fin 8192) (r j : Fin 1024)
    (h0 : ∀ k : Fin 1024, v0 (ix2 r k) = X (ix2 R k)) (h1 : v1 (ix2 r j) = E (ix2 R j)) (h2 : v2 (ix2 r j) = W (ix2 R j))
    (h3 : ∀ k : Fin 1024, v3 (ix2 j k) = A (ix2 j k)) (h4 : v4 (ix2 (0 : Fin 1) j) = T (ix2 (0 : Fin 1) j))
    (h5 : v5 (ix2 (0 : Fin 1) j) = Spec.sat (T (ix2 (0 : Fin 1) j))) :
    KernelBlock.dxBlk v0 v1 v2 v3 v4 v5 r j = Spec.dxAt X E W A T R j := by
  unfold KernelBlock.dxBlk Spec.dxAt
  rw [h1, h2, h4, h5]
  simp only [h0, h3]

/-! ## The windows' index maps over the grid, and each block read in the arrays -/

/-- The printed index maps, decided over the eight points: x, e and w move down the rows with the point, A, the
    target and the host's row stay, the output moves down its middle axis with the point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = t.val ∧ win0_6.index t (2 : Fin 3) = 0 :=
  (by decide +kernel : ∀ t : Fin grid0.N, _)

theorem point_lt (t : Fin cfg0.N) : t.val < 8 := by
  have h := t.isLt
  have e : cfg0.N = 8 := N_0
  omega

/-- Point t's block of x at (r, j) is x at (1024·t + r, j). -/
theorem blk0_at (c : Dev nD) (t : Fin cfg0.N) (r j : Fin 1024) (R : Fin 8192) (hR : R.val = 1024 * t.val + r.val) :
    (iblk m c 0 t : Vec Ideal S1024x1024 .f32) (ix2 r j) = V m c main_arg0 (ix2 R j) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * r.val = R.val; rw [e0, hR]; omega
  | ⟨1, _⟩ => show win0_0.index t (1 : Fin 2) * 1024 + 1 * j.val = j.val; rw [e1]; omega

/-- Point t's block of e at (r, j) is e at (1024·t + r, j). -/
theorem blk1_at (c : Dev nD) (t : Fin cfg0.N) (r j : Fin 1024) (R : Fin 8192) (hR : R.val = 1024 * t.val + r.val) :
    (iblk m c 1 t : Vec Ideal S1024x1024 .f32) (ix2 r j) = V m c main_arg1 (ix2 R j) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * r.val = R.val; rw [e0, hR]; omega
  | ⟨1, _⟩ => show win0_1.index t (1 : Fin 2) * 1024 + 1 * j.val = j.val; rw [e1]; omega

/-- Point t's block of w at (r, j) is w at (1024·t + r, j). -/
theorem blk2_at (c : Dev nD) (t : Fin cfg0.N) (r j : Fin 1024) (R : Fin 8192) (hR : R.val = 1024 * t.val + r.val) :
    (iblk m c 2 t : Vec Ideal S1024x1024 .f32) (ix2 r j) = V m c main_arg2 (ix2 R j) := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 1024 + 1 * r.val = R.val; rw [e0, hR]; omega
  | ⟨1, _⟩ => show win0_2.index t (1 : Fin 2) * 1024 + 1 * j.val = j.val; rw [e1]; omega

/-- Every point's block of A is A. -/
theorem blk3_at (c : Dev nD) (t : Fin cfg0.N) (j k : Fin 1024) :
    (iblk m c 3 t : Vec Ideal S1024x1024 .f32) (ix2 j k) = V m c main_arg3 (ix2 j k) := by
  obtain ⟨-, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 1024 + 1 * j.val = j.val; rw [e0]; omega
  | ⟨1, _⟩ => show win0_3.index t (1 : Fin 2) * 1024 + 1 * k.val = k.val; rw [e1]; omega

/-- Every point's block of the target is the target. -/
theorem blk4_at (c : Dev nD) (t : Fin cfg0.N) (j : Fin 1024) :
    (iblk m c 4 t : Vec Ideal S1x1024 .f32) (ix2 (0 : Fin 1) j) = V m c main_arg4 (ix2 (0 : Fin 1) j) := by
  obtain ⟨-, -, -, -, -, -, -, -, e0, e1, -⟩ := idx_facts t
  unfold iblk
  rw [View.read_apply]
  show V m c main_arg4 _ = V m c main_arg4 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * j.val = j.val; rw [e1]; omega

/-- Every point's sixth block is the row the host computed. -/
theorem blk5_at (c : Dev nD) (t : Fin cfg0.N) (j : Fin 1024) :
    (iblk m c 5 t : Vec Ideal S1x1024 .f32) (ix2 (0 : Fin 1) j) = V m c main_v4 (ix2 (0 : Fin 1) j) := by
  obtain ⟨-, -, -, -, -, -, -, -, -, -, e0, e1, -⟩ := idx_facts t
  unfold iblk
  rw [View.read_apply]
  show V m c main_v4 _ = V m c main_v4 _
  congr 1
  funext a
  apply Fin.ext
  match a with
  | ⟨0, _⟩ => show win0_5.index t (0 : Fin 2) * 1 + 1 * 0 = 0; rw [e0]
  | ⟨1, _⟩ => show win0_5.index t (1 : Fin 2) * 1024 + 1 * j.val = j.val; rw [e1]; omega

/-! ## The row the host computes before the launch -/

/-- The host's row is σ(target), entry by entry: it is t·t divided by 1 + t·t, the host's quotient being the
    kernel's on the extended reals. -/
theorem host_row_at (c : Dev nD) (i : S1x1024.Idx) : V m c main_v4 i = Spec.sat (V m c main_arg4 i) := by
  have e : (V m c main_v4 : S1x1024.Idx → EReal)
      = Host.divf (mulf (m ((c : Thread nD τ).loc main_arg4)) (m ((c : Thread nD τ).loc main_arg4)))
          (addf (broadcastInDim S1x1024 ![] bcast_S_S1x1024 (constant (F := Ideal) S_ .f32 0x3F800000#32))
            (mulf (m ((c : Thread nD τ).loc main_arg4)) (m ((c : Thread nD τ).loc main_arg4)))) := by
    dsimp only [Gen.V, Gen.hostOps0]
    after_results
  rw [e, V_main_arg4]
  rfl

/-! ## What each point writes back -/

/-- Point t's output block, read at a block index, is the stack of the arrays at that entry's place in the array. -/
theorem block_at (c : Dev nD) (t : Fin cfg0.N) (y : S3x1024x1024.Idx) :
    KernelBlock.blockOf (iblk m c 0 t) (iblk m c 1 t) (iblk m c 2 t) (iblk m c 3 t) (iblk m c 4 t) (iblk m c 5 t) y
      = Spec.stack (V m c main_arg0) (V m c main_arg1) (V m c main_arg2) (V m c main_arg3) (V m c main_arg4)
          (((cfg0.win 6).blk t).view.emb y) := by
  obtain ⟨p, r, j, rfl⟩ : ∃ (p : Fin 3) (r j : Fin 1024), y = ix3 p r j := ⟨y 0, y 1, y 2, eq_ix3 y⟩
  have ht := point_lt t
  obtain ⟨-, -, -, -, -, -, -, -, -, -, -, -, e0, e1, e2⟩ := idx_facts t
  have hemb : ((cfg0.win 6).blk t).view.emb (ix3 p r j) = ix3 p (⟨1024 * t.val + r.val, by omega⟩ : Fin 8192) j := by
    funext a
    apply Fin.ext
    match a with
    | ⟨0, _⟩ => show win0_6.index t (0 : Fin 3) * 3 + 1 * p.val = p.val; rw [e0]; omega
    | ⟨1, _⟩ => show win0_6.index t (1 : Fin 3) * 1024 + 1 * r.val = 1024 * t.val + r.val; rw [e1]; omega
    | ⟨2, _⟩ => show win0_6.index t (2 : Fin 3) * 1024 + 1 * j.val = j.val; rw [e2]; omega
  rw [hemb, Spec.stack_apply]
  show Spec.slab p (KernelBlock.dxBlk (iblk m c 0 t) (iblk m c 1 t) (iblk m c 2 t) (iblk m c 3 t) (iblk m c 4 t) (iblk m c 5 t) r j) = _
  congr 1
  exact dxBlk_eq (V m c main_arg0) (V m c main_arg1) (V m c main_arg2) (V m c main_arg3) (V m c main_arg4)
    (iblk m c 0 t) (iblk m c 1 t) (iblk m c 2 t) (iblk m c 3 t) (iblk m c 4 t) (iblk m c 5 t)
    (⟨1024 * t.val + r.val, by omega⟩ : Fin 8192) r j
    (fun k => blk0_at m c t r k _ rfl) (blk1_at m c t r j _ rfl) (blk2_at m c t r j _ rfl)
    (fun k => blk3_at m c t j k) (blk4_at m c t j) ((blk5_at m c t j).trans (host_row_at m c _))

/-- WHAT POINT t WRITES BACK is its block of the stack of the arrays as the region finds them. -/
theorem flushed_eq (c : Dev nD) (t : Fin cfg0.N) :
    (dats m 0 c).flushed 6 t = ((cfg0.win 6).blk t).view.read (Elt Ideal)
      (Spec.stack (V m c main_arg0) (V m c main_arg1) (V m c main_arg2) (V m c main_arg3) (V m c main_arg4)) := by
  rw [Value.flushed6, out_eq]
  funext y
  exact block_at m c t y

/-! ## The eight blocks tile the array -/

/-- An index of the array is in point t's block iff each coordinate is in the block's range on its axis. -/
theorem mem_blk (t : Fin cfg0.N) (i : S3x8192x1024.Idx) :
    i ∈ ((cfg0.win 6).blk t).view.set ↔ ∀ a : Fin 3, win0_6.index t a * S3x1024x1024.size a ≤ (i a).val
      ∧ (i a).val < win0_6.index t a * S3x1024x1024.size a + S3x1024x1024.size a := by
  show i ∈ ((View.whole main_v5).slice (win0_6.rect t)).set ↔ _
  rw [View.set_slice_whole, Rect.mem_set_unit]
  exact Iff.rfl

/-- Every index of the result lies in the block of the point its row names: row R in the block of point R / 1024. -/
theorem cover (i : S3x8192x1024.Idx) :
    ∃ t : Fin cfg0.N, (cfg0.win 6).flush t = true ∧ i ∈ ((cfg0.win 6).blk t).view.set := by
  have h0 : (i 0).val < 3 := (i 0).isLt
  have h1 : (i 1).val < 8192 := (i 1).isLt
  have h2 : (i 2).val < 1024 := (i 2).isLt
  have hN : cfg0.N = 8 := N_0
  let t : Fin cfg0.N := ⟨(i 1).val / 1024, by omega⟩
  obtain ⟨-, -, -, -, -, -, -, -, -, -, -, -, e0, e1, e2⟩ := idx_facts t
  have e1' : win0_6.index t (1 : Fin 3) = (i 1).val / 1024 := e1
  refine ⟨t, flush0_6 t, ?_⟩
  rw [mem_blk]
  intro a
  match a with
  | ⟨0, _⟩ => show win0_6.index t (0 : Fin 3) * 3 ≤ (i 0).val ∧ (i 0).val < win0_6.index t (0 : Fin 3) * 3 + 3; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

/-! ## The array after the run, and the run -/

/-- THE RESULT ARRAY after the run is the stack of the argument arrays. -/
theorem final (c : Dev nD) : (dats m 0 c).arrAt 6 cfg0.N
    = Spec.stack (m ((c : Thread nD τ).loc main_arg0)) (m ((c : Thread nD τ).loc main_arg1)) (m ((c : Thread nD τ).loc main_arg2))
        (m ((c : Thread nD τ).loc main_arg3)) (m ((c : Thread nD τ).loc main_arg4)) := by
  rw [(dats m 0 c).arrAt_eq_of_cover 6 _ (fun t _ => flushed_eq m c t) cover,
    V_main_arg0, V_main_arg1, V_main_arg2, V_main_arg3, V_main_arg4]

/-- The kernel's run: every weakly fair execution terminates with the result array at the stack of the arguments
    and the arguments unchanged. -/
theorem run : θ_run defs (onTc (τ := τ) (main (F := Ideal))) ⟨m, fun _ => 0, ρ⟩ fun r => ∀ c : Dev nD,
      r.2.mem ((c : Thread nD τ).loc main_v5)
        = Spec.stack (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelArray

end
-- ==== Proof.lean ====
/-
  The kernel and its reference compute one function on the extended reals.

  With σ(v) = v·v / (1 + v·v), both programs return the [3, 8192, 1024] stack (dx, −dx, 0) of

    dx = (−1)·x + σ(x)·Aᵀ + ((−1)·(w·((x + e) − target))·σ(target))·σ(x),

  the target's row laid along every row of the batch (Proof/Spec.lean states it entry by entry). The reference
  computes it as written, on whole arrays (Proof/RefStack.lean). The kernel computes σ(target) on the host, then
  works through the batch in eight blocks of 1024 rows: in each it forms dx with one matrix product that contracts
  σ(x) and A on their last axes into a zero accumulator, and stores dx, 0 − dx and zeros as three slabs of the output
  block (Proof/KernelBlock.lean); the eight blocks tile the result (Proof/KernelArray.lean). The two differ only
  where the extended reals do not: a product into a zero accumulator against a product with the transpose,
  0 − y against −y, the blocking of the rows. No step uses that the inputs are finite.

  The three frames are the generated ones (the reference's is its generated run with the result dropped); the
  idealization rewrote nothing, so its conjunct is trivial.
-/
import proofs.«162826_j56461640073243_2_alg».proof.Defs
import proofs.«162826_j56461640073243_2_alg».proof.Proof.Gen.Kernel
import proofs.«162826_j56461640073243_2_alg».proof.Proof.Gen.Kernel.Skeleton
import proofs.«162826_j56461640073243_2_alg».proof.Proof.Gen.Kernel.Launch
import proofs.«162826_j56461640073243_2_alg».proof.Proof.Gen.Kernel.Points
import proofs.«162826_j56461640073243_2_alg».proof.Proof.Gen.Kernel.Frame
import proofs.«162826_j56461640073243_2_alg».proof.Proof.Gen.KernelIdeal
import proofs.«162826_j56461640073243_2_alg».proof.Proof.Gen.KernelIdeal.Skeleton
import proofs.«162826_j56461640073243_2_alg».proof.Proof.Gen.KernelIdeal.Launch
import proofs.«162826_j56461640073243_2_alg».proof.Proof.Gen.KernelIdeal.Points
import proofs.«162826_j56461640073243_2_alg».proof.Proof.Gen.KernelIdeal.Frame
import proofs.«162826_j56461640073243_2_alg».proof.Proof.Gen.ReferenceIdeal
import proofs.«162826_j56461640073243_2_alg».proof.Proof.Gen.KernelIdeal.Value
import proofs.«162826_j56461640073243_2_alg».proof.Proof.Gen.ReferenceIdeal.Run
import proofs.«162826_j56461640073243_2_alg».proof.Proof.Gen.ReferenceIdeal.Read
import proofs.«162826_j56461640073243_2_alg».proof.Proof.Gen.Pre_finite_inputs
import proofs.«162826_j56461640073243_2_alg».proof.Proof.RefStack
import proofs.«162826_j56461640073243_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's are both the
    stack (dx, −dx, 0) of those arguments. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v30_eq _ _ _ _ _).trans (Cert.RefStack.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
